-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x1 : Shape := ⟨2, ![50000, 1]⟩
abbrev S500000 : Shape := ⟨1, ![500000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg11 : FVec F S512x512 .f32) (main_arg12 : FVec F S512 .f32) (main_arg13 : FVec F S512 .f32) (main_arg14 : FVec F S512 .f32) (main_v33 : IVec S_ 1) : IVec S_ 1 :=
  let main_v34 : FVec F S512x512 .f32 := Host.absf main_arg11
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg13
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S50000x1 .f32) (main_arg9 : FVec F S512x512 .f32) (main_arg10 : FVec F S512x512 .f32) (main_arg11 : FVec F S512x512 .f32) (main_arg12 : FVec F S512 .f32) (main_arg13 : FVec F S512 .f32) (main_arg14 : FVec F S512 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S50000x1 .f32 := Host.absf main_arg4
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S512x512 .f32 := Host.absf main_arg9
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg10
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg11 main_arg12 main_arg13 main_arg14 main_v33

def fn {F : FTy → Type} [FloatOps F] (main_arg0 : FVec F S50000x512 .f32) (main_arg1 : FVec F S50000x512 .f32) (main_arg2 : FVec F S50000x512 .f32) (main_arg3 : FVec F S50000x1 .f32) (main_arg4 : FVec F S50000x1 .f32) (main_arg5 : IVec S500000 32) (main_arg6 : IVec S500000 32) (main_arg7 : IVec S500000 32) (main_arg8 : IVec S500000 32) (main_arg9 : FVec F S512x512 .f32) (main_arg10 : FVec F S512x512 .f32) (main_arg11 : FVec F S512x512 .f32) (main_arg12 : FVec F S512 .f32) (main_arg13 : FVec F S512 .f32) (main_arg14 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S50000x512 .f32 := Host.absf main_arg2
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg9 main_arg10 main_arg11 main_arg12 main_arg13 main_arg14 main_v13 main_v16
-- ==== Kernel.lean ====
abbrev S50000x512 : Shape := ⟨2, ![50000, 512]⟩
abbrev S50000x1 : Shape := ⟨2, ![50000, 1]⟩
abbrev S500000 : Shape := ⟨1, ![500000]⟩
abbrev S512x512 : Shape := ⟨2, ![512, 512]⟩
abbrev S512 : Shape := ⟨1, ![512]⟩
abbrev S1000x512 : Shape := ⟨2, ![1000, 512]⟩
abbrev S1000x1 : Shape := ⟨2, ![1000, 1]⟩
abbrev S_ : Shape := ⟨0, ![]⟩
abbrev S500000x1 : Shape := ⟨2, ![500000, 1]⟩
abbrev S500000x512 : Shape := ⟨2, ![500000, 512]⟩
abbrev S1x512 : Shape := ⟨2, ![1, 512]⟩

abbrev nBuf : Space → Nat
  | .hbm => 48
  | .vmem => 34
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S50000x1, .f32⟩
  | .hbm, ⟨4, _⟩ => ⟨S50000x1, .f32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x512, .f32⟩
  | .hbm, ⟨27, _⟩ => ⟨S_, .f32⟩
  | .hbm, ⟨28, _⟩ => ⟨S50000x512, .f32⟩
  | .hbm, ⟨29, _⟩ => ⟨S500000x1, .i32⟩
  | .hbm, ⟨30, _⟩ => ⟨S50000x512, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x512, .f32⟩
  | .hbm, ⟨40, _⟩ => ⟨S_, .f32⟩
  | .hbm, ⟨41, _⟩ => ⟨S50000x512, .f32⟩
  | .hbm, ⟨42, _⟩ => ⟨S500000x1, .i32⟩
  | .hbm, ⟨43, _⟩ => ⟨S50000x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x1, .f32⟩
  | .local _ .vmem, ⟨26, _⟩ => ⟨S1000x1, .f32⟩
  | .local _ .vmem, ⟨27, _⟩ => ⟨S1000x1, .f32⟩
  | .local _ .vmem, ⟨28, _⟩ => ⟨S1000x1, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1000x512, .f32⟩
  | .local _ .vmem, ⟨33, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1000x1_S1000x1_0_0 : ∀ a, (![0, 0] : Fin 2 → Nat) a + S1000x1.size a ≤ S1000x1.size a
  h_S1000x1 : 0 < S1000x1.numel
  broadcasts_S1000x1_S1000x512 : S1000x1.Broadcasts S1000x512
  bcast_S_S500000 : S_.BroadcastsInDim S500000 (![] : Fin 0 → Fin S500000.rank)
  bcast_S500000_S500000x1_0 : S500000.BroadcastsInDim S500000x1 (![0] : Fin 1 → Fin S500000x1.rank)
  bcast_S_S50000x512 : S_.BroadcastsInDim S50000x512 (![] : Fin 0 → Fin S50000x512.rank)
  shapeCasts_S512_S1x512 : S512.ShapeCasts S1x512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S1000x512_S512x512_S1000x512_1_0_0_1_n_n_wf : DotDims.WF S1000x512 S512x512 S1000x512 [1] [0] [0] [1] [] []
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S50000x1.size a
  hwx0_4 : ∀ i : grid0.Coords, EltTy.bits .f32 = 32 ∨ (Rect.block (s := S50000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S50000x512.size a
  hwx0_8 : ∀ i : grid0.Coords, EltTy.bits .f32 = 32 ∨ (Rect.block (s := S50000x512) S1000x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S50000x512.size a
  hwx0_9 : ∀ i : grid0.Coords, EltTy.bits .f32 = 32 ∨ (Rect.block (s := S50000x512) S1000x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x512.size a ≤ S50000x512.size a
  hwx0_10 : ∀ i : grid0.Coords, EltTy.bits .f32 = 32 ∨ (Rect.block (s := S50000x512) S1000x512.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S50000x512.size a
  hwx1_2 : ∀ i : grid1.Coords, EltTy.bits .f32 = 32 ∨ (Rect.block (s := S50000x512) S1000x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S50000x1.size a
  hwx1_3 : ∀ i : grid1.Coords, EltTy.bits .f32 = 32 ∨ (Rect.block (s := S50000x1) S1000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x1.size a ≤ S50000x1.size a
  hwx1_4 : ∀ i : grid1.Coords, EltTy.bits .f32 = 32 ∨ (Rect.block (s := S50000x1) S1000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x512.size a ≤ S50000x512.size a
  hwx1_8 : ∀ i : grid1.Coords, EltTy.bits .f32 = 32 ∨ (Rect.block (s := S50000x512) S1000x512.size (cc1_transform_8 i) (hinb1_8 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1000x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1000x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S1000x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v10) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1000x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x512 : Shape := ⟨2, ![50000, 512]⟩
abbrev S50000x1 : Shape := ⟨2, ![50000, 1]⟩
abbrev S500000 : Shape := ⟨1, ![500000]⟩
abbrev S512x512 : Shape := ⟨2, ![512, 512]⟩
abbrev S512 : Shape := ⟨1, ![512]⟩
abbrev S_ : Shape := ⟨0, ![]⟩
abbrev S500000x1 : Shape := ⟨2, ![500000, 1]⟩
abbrev S500000x512 : Shape := ⟨2, ![500000, 512]⟩
abbrev S1x512 : Shape := ⟨2, ![1, 512]⟩

abbrev nBuf : Space → Nat
  | .hbm => 66
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S50000x1, .f32⟩
  | .hbm, ⟨4, _⟩ => ⟨S50000x1, .f32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S50000x512, .f32⟩
  | .hbm, ⟨19, _⟩ => ⟨S50000x512, .f32⟩
  | .hbm, ⟨20, _⟩ => ⟨S50000x512, .f32⟩
  | .hbm, ⟨21, _⟩ => ⟨S50000x512, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x512, .f32⟩
  | .hbm, ⟨31, _⟩ => ⟨S_, .f32⟩
  | .hbm, ⟨32, _⟩ => ⟨S50000x512, .f32⟩
  | .hbm, ⟨33, _⟩ => ⟨S500000x1, .i32⟩
  | .hbm, ⟨34, _⟩ => ⟨S50000x512, .f32⟩
  | .hbm, ⟨35, _⟩ => ⟨S50000x512, .f32⟩
  | .hbm, ⟨36, _⟩ => ⟨S50000x512, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x512, .f32⟩
  | .hbm, ⟨46, _⟩ => ⟨S_, .f32⟩
  | .hbm, ⟨47, _⟩ => ⟨S50000x512, .f32⟩
  | .hbm, ⟨48, _⟩ => ⟨S500000x1, .i32⟩
  | .hbm, ⟨49, _⟩ => ⟨S50000x512, .f32⟩
  | .hbm, ⟨50, _⟩ => ⟨S50000x512, .f32⟩
  | .hbm, ⟨51, _⟩ => ⟨S50000x512, .f32⟩
  | .hbm, ⟨52, _⟩ => ⟨S1x512, .f32⟩
  | .hbm, ⟨53, _⟩ => ⟨S50000x512, .f32⟩
  | .hbm, ⟨54, _⟩ => ⟨S50000x512, .f32⟩
  | .hbm, ⟨55, _⟩ => ⟨S1x512, .f32⟩
  | .hbm, ⟨56, _⟩ => ⟨S50000x512, .f32⟩
  | .hbm, ⟨57, _⟩ => ⟨S50000x512, .f32⟩
  | .hbm, ⟨58, _⟩ => ⟨S50000x512, .f32⟩
  | .hbm, ⟨59, _⟩ => ⟨S1x512, .f32⟩
  | .hbm, ⟨60, _⟩ => ⟨S50000x512, .f32⟩
  | .hbm, ⟨61, _⟩ => ⟨S50000x512, .f32⟩
  | .hbm, ⟨62, _⟩ => ⟨S50000x512, .f32⟩
  | .hbm, ⟨63, _⟩ => ⟨S_, .f32⟩
  | .hbm, ⟨64, _⟩ => ⟨S50000x512, .f32⟩
  | .hbm, ⟨65, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call0_cst : Ref sig .tc := ⟨.hbm, 63, rfl⟩
abbrev main_call0_v0 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S50000x1_S50000x512_0_1 : S50000x1.BroadcastsInDim S50000x512 (![0, 1] : Fin 2 → Fin S50000x512.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S50000x512_S512x512_S50000x512_1_0_0_1_n_n_wf : DotDims.WF S50000x512 S512x512 S50000x512 [1] [0] [0] [1] [] []
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf

class Facts : Prop extends Facts₀ where

variable [Facts]
-- ==== Proof.KernelRun.lean ====
/-
  The idealized kernel's run with its result named.

  @main is two pipelined regions with one stretch of host operations between them.  The buffer contents at
  the segment boundaries form a fold from the launch memory: W0 (launch), W1 (region 0's arrays at what its
  write-backs leave), W2 (the host stretch applied to W1), W3 (region 1's arrays at what its write-backs
  leave).  Every weakly fair execution ends with every unscoped buffer at W3; read at the result buffer
  this names the result, and read at an argument it walks back to the launch contents.
-/
import proofs.«170449_j28681791603391_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is region 1's output array (its window 8), so at the last boundary it holds what
    that region's write-backs leave. -/
theorem W3_result (c : Dev nD) :
    W3 m ρ c (Proc.devRef .tc main_v24) = (dat1 (V2 m ρ) c).arrAt 8 cfg1.N :=
  W3_arr m ρ c 8

set_option backward.isDefEq.respectTransparency.types false in
/-- Every weakly fair execution of @main terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v24) = W3 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v24 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c)⟩)

end Cert.KernelIdeal.ResultRun

end
-- ==== Proof.Spec.lean ====
/-
  What the graph layer computes, index by index, over the extended reals.

  For node features `x` (50000 × 512), weights `w` (512 × 512) and a per-node scale `n` (50000 × 1):
  the PROJECTION at node `r`, channel `c` is `∑ k, x (r, k) · w (k, c)`, and the SCALED projection is that
  times `n (r, 0)`.  The EDGE AGGREGATION of a feature array `X` along edges `(src e, dst e)` gathers row
  `src e` of `X` for every edge (a negative source index first moved up by the number of nodes) and adds it
  into row `dst e` of a zero array; here it is carried as ONE function of `X`, never opened, because both
  programs apply the same gather and the same scatter-add.  The COMBINE of two aggregated arrays `A`, `B`
  and a skip array `M` is, at `(r, c)`,
      max (((A (r,c) · ng (r,0) + bh c) + (B (r,c) · nf (r,0) + bs c)) + (M (r,c) + bm c)) 0
  with the additions grouped exactly so (no distributivity, no reassociation is used anywhere).
-/
import Idealize.ShloMosaic.Lib.ValueIdx
import Idealize.ShloMosaic.PureOps.Ideal.Laws

noncomputable section

namespace Cert.GraphLayer

open Idealize.ShloMosaic Idealize.ShloMosaic.ValueIdx

/-- Node features: 50000 nodes, 512 channels. -/
abbrev Feat : Shape := ⟨2, ![50000, 512]⟩
/-- One scale per node, kept as a column. -/
abbrev NodeCol : Shape := ⟨2, ![50000, 1]⟩
/-- Square weights. -/
abbrev Wt : Shape := ⟨2, ![512, 512]⟩
/-- A bias, one entry per channel. -/
abbrev Chan : Shape := ⟨1, ![512]⟩
/-- The edge list's length, -/
abbrev Edges : Shape := ⟨1, ![500000]⟩
/-- an edge index as a one-column array, -/
abbrev EdgeCol : Shape := ⟨2, ![500000, 1]⟩
/-- and one gathered feature row per edge. -/
abbrev EdgeFeat : Shape := ⟨2, ![500000, 512]⟩
/-- The shape of a scalar. -/
abbrev Scal : Shape := ⟨0, ![]⟩

/-- Row `r` of `x` against column `c` of `w`: `∑ k, x (r, k) · w (k, c)`.  The number of rows is free, so the
    same sum reads a 1000-row block and the whole 50000-row array. -/
def rowDotCol {M : Nat} (x : (⟨2, ![M, 512]⟩ : Shape).Idx → EReal) (w : Wt.Idx → EReal) (r : Fin M) (c : Fin 512) : EReal :=
  ∑ k : Fin 512, x (ix2 r k) * w (ix2 k c)

/-- The sum depends only on row `r` of `x` and column `c` of `w`: two arrays (of any heights) that agree there give
    the same sum.  This is how a 1000-row block's sum is the whole array's sum at the block's row. -/
theorem rowDotCol_congr {M M' : Nat} (x : (⟨2, ![M, 512]⟩ : Shape).Idx → EReal) (x' : (⟨2, ![M', 512]⟩ : Shape).Idx → EReal)
    (w w' : Wt.Idx → EReal) (r : Fin M) (r' : Fin M') (c c' : Fin 512)
    (hx : ∀ k : Fin 512, x (ix2 r k) = x' (ix2 r' k)) (hw : ∀ k : Fin 512, w (ix2 k c) = w' (ix2 k c')) :
    rowDotCol x w r c = rowDotCol x' w' r' c' :=
  Finset.sum_congr rfl fun k _ => by rw [hx k, hw k]

/-- The projection `x · w`. -/
def proj (x : Feat.Idx → EReal) (w : Wt.Idx → EReal) : Feat.Idx → EReal :=
  fun i => rowDotCol x w (i 0) (i 1)

/-- The projection with every node's row scaled by that node's entry of `n`. -/
def projScaled (x : Feat.Idx → EReal) (w : Wt.Idx → EReal) (n : NodeCol.Idx → EReal) : Feat.Idx → EReal :=
  fun i => rowDotCol x w (i 0) (i 1) * n (ix2 (i 0) 0)

/-- A source index below zero counts from the end: it is moved up by the number of nodes. -/
def wrapIndex (hb : Scal.BroadcastsInDim Edges (![] : Fin 0 → Fin Edges.rank)) (src : IVec Edges 32) : IVec Edges 32 :=
  select (cmpi .slt src (broadcastInDim Edges ![] hb (constantI Scal 32 0#32)))
    (addi src (broadcastInDim Edges ![] hb (constantI Scal 32 50000#32))) src

/-- The edge aggregation of `X`: row `src e` of `X` gathered for every edge `e`, added into row `dst e` of a
    zero array.  The dimension numbers of the gather and of the scatter-add are parameters: each program states
    its own copy of the same two records. -/
def aggregate (gd : GatherDims Feat EdgeCol EdgeFeat) (sd : ScatterDims Feat EdgeCol EdgeFeat)
    (hz : Scal.BroadcastsInDim Feat (![] : Fin 0 → Fin Feat.rank))
    (hc : Edges.BroadcastsInDim EdgeCol (![0] : Fin 1 → Fin EdgeCol.rank))
    (hb : Scal.BroadcastsInDim Edges (![] : Fin 0 → Fin Edges.rank))
    (X : FVec Ideal Feat .f32) (src dst : IVec Edges 32) : FVec Ideal Feat .f32 :=
  Host.scatterAdd sd (broadcastInDim Feat ![] hz (constant (F := Ideal) Scal .f32 0x00000000#32))
    (broadcastInDim EdgeCol ![0] hc dst)
    (Host.gather gd X (broadcastInDim EdgeCol ![0] hc (wrapIndex hb src)))

/-- The combine: both aggregated arrays scaled per node and biased per channel, the skip array biased, the
    three summed as `(· + ·) + ·`, and the sum clamped below at the zero word's value.  A bias is taken as a
    function of the channel, so that a 512-vector and a 1 × 512 row are read the same way. -/
def combine (A B M : Feat.Idx → EReal) (ng nf : NodeCol.Idx → EReal) (bh bs bm : Fin 512 → EReal) : Feat.Idx → EReal :=
  fun i => max (((A i * ng (ix2 (i 0) 0) + bh (i 1)) + (B i * nf (ix2 (i 0) 0) + bs (i 1)))
      + (M i + bm (i 1))) (Ideal.ofBits .f32 0x00000000#32)

/-- The layer: the combine of the two aggregated scaled projections and the plain projection. -/
def layer (gd : GatherDims Feat EdgeCol EdgeFeat) (sd : ScatterDims Feat EdgeCol EdgeFeat)
    (hz : Scal.BroadcastsInDim Feat (![] : Fin 0 → Fin Feat.rank))
    (hc : Edges.BroadcastsInDim EdgeCol (![0] : Fin 1 → Fin EdgeCol.rank))
    (hb : Scal.BroadcastsInDim Edges (![] : Fin 0 → Fin Edges.rank))
    (h s m : Feat.Idx → EReal) (ng nf : NodeCol.Idx → EReal) (srcG dstG srcF dstF : IVec Edges 32)
    (wh ws wm : Wt.Idx → EReal) (bh bs bm : Chan.Idx → EReal) : Feat.Idx → EReal :=
  combine (aggregate gd sd hz hc hb (projScaled h wh ng) srcG dstG)
    (aggregate gd sd hz hc hb (projScaled s ws nf) srcF dstF) (proj m wm) ng nf
    (fun q => bh (ix1 q)) (fun q => bs (ix1 q)) (fun q => bm (ix1 q))

end Cert.GraphLayer

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.ProjRegion.lean ====
/-
  The first kernel region computes the three projections, block by block.

  The grid has 50 points; point `t` works on rows `1000·t … 1000·t + 999`.  Each feature operand and each output is
  seen through its `t`-th 1000 × 512 block, each node scale through its `t`-th 1000 × 1 block, and each weight matrix
  whole.  The body rounds its operands to bf16 — the identity on the extended reals — and multiplies into a zero
  accumulator, so the stored value at `(p, q)` of a block is the row·column sum `∑ k, x (p, k) · w (k, q)` of the
  loaded blocks, for two of the outputs times the node scale at `(p, 0)`.  Row `p` of block `t` is row `1000·t + p`
  of the array and the weights are whole, so that sum is the specification's at row `1000·t + p`; the 50 blocks tile
  the array, so after the region each output array is the (scaled) projection of the arrays the region found.
-/
import proofs.«170449_j28681791603391_1_alg».proof.Proof.Gen.KernelIdeal.Frame
import proofs.«170449_j28681791603391_1_alg».proof.Proof.Spec
import proofs.«170449_j28681791603391_1_alg».proof.Proof.LibPlainDot
import Idealize.ShloMosaic.Lib.Pipeline.Value
import Idealize.ShloMosaic.Lib.ValueIdx

set_option maxRecDepth 16384

noncomputable section

namespace Cert.KernelIdeal.ProjRegion

open Cert.KernelIdeal Cert.KernelIdeal.Gen Cert.GraphLayer
open Idealize.ShloMosaic Idealize.ShloMosaic.TcCoe Idealize.SL.Sem Idealize.ShloMosaic.ValueIdx
open Idealize.ShloMosaic.Pipeline (Dat)

theorem origin : (![0, 0] : Fin 2 → Nat) = fun _ => 0 := funext fun a => by fin_cases a <;> rfl

/-- The kernel's dimension numbers are those of a plain product. -/
theorem dot_plain : dot_S1000x512_S512x512_S1000x512_1_0_0_1_n_n = DotDims.plain 1000 512 512 := rfl

/-- The product of the rounded blocks into the zero accumulator, at `(p, q)`: the row·column sum of the blocks
    (rounding to bf16 is the identity on the extended reals). -/
theorem matmul_block (x : Vec Ideal S1000x512 .f32) (w : Vec Ideal S512x512 .f32) (p : Fin 1000) (q : Fin 512) :
    matmul (F := Ideal) dot_S1000x512_S512x512_S1000x512_1_0_0_1_n_n none (truncf .bf16 x bitsLt_bf16_f32)
      (truncf .bf16 w bitsLt_bf16_f32) (constant S1000x512 .f32 0x00000000#32) (ix2 p q) = rowDotCol (M := 1000) x w p q := by
  rw [dot_plain]
  exact PlainDot.matmul_zero_apply 1000 512 512 none (truncf .bf16 x bitsLt_bf16_f32) (truncf .bf16 w bitsLt_bf16_f32) p q

/-- A 1000 × 1 column broadcast along the channels is read at `(p, 0)`. -/
theorem scale_block (n : Vec Ideal S1000x1 .f32) (p : Fin 1000) (q : Fin 512) :
    broadcastTo S1000x512 n broadcasts_S1000x1_S1000x512 (ix2 p q) = n (ix2 p (0 : Fin 1)) :=
  broadcastTo_apply n broadcasts_S1000x1_S1000x512 (ix2 p q) (ix2 p (0 : Fin 1)) (fun a => by
    match a with
    | ⟨0, _⟩ => show p.val = if (1000 : Nat) = 1 then 0 else p.val; rw [if_neg (by decide)]
    | ⟨1, _⟩ => show 0 = if (1 : Nat) = 1 then 0 else q.val; rw [if_pos rfl])

/-- The three stored values at `(p, q)`. -/
theorem pay_h (x : Vec Ideal S1000x512 .f32) (w : Vec Ideal S512x512 .f32) (n : Vec Ideal S1000x1 .f32)
    (p : Fin 1000) (q : Fin 512) :
    k0_pay2 (F := Ideal) x w n (ix2 p q) = rowDotCol (M := 1000) x w p q * n (ix2 p (0 : Fin 1)) := by
  unfold k0_pay2
  simp only [mulf_apply]
  rw [matmul_block, scale_block]
theorem pay_s (x : Vec Ideal S1000x512 .f32) (w : Vec Ideal S512x512 .f32) (n : Vec Ideal S1000x1 .f32)
    (p : Fin 1000) (q : Fin 512) :
    k0_pay3 (F := Ideal) x w n (ix2 p q) = rowDotCol (M := 1000) x w p q * n (ix2 p (0 : Fin 1)) := by
  unfold k0_pay3
  simp only [mulf_apply]
  rw [matmul_block, scale_block]
theorem pay_m (x : Vec Ideal S1000x512 .f32) (w : Vec Ideal S512x512 .f32) (p : Fin 1000) (q : Fin 512) :
    k0_pay1 (F := Ideal) x w (ix2 p q) = rowDotCol (M := 1000) x w p q := by
  unfold k0_pay1
  exact matmul_block x w p q

/-- The printed index maps, decided over the 50 points: an output, its feature operand and its node scale are at
    block row `t`, block column 0; its weights at block (0, 0). -/
theorem idx_facts8 : ∀ t : Fin cfg0.N,
    win0_8.index t (0 : Fin 2) = t.val ∧ win0_8.index t (1 : Fin 2) = 0
    ∧ win0_0.index t (0 : Fin 2) = t.val ∧ win0_0.index t (1 : Fin 2) = 0
    ∧ win0_5.index t (0 : Fin 2) = 0 ∧ win0_5.index t (1 : Fin 2) = 0
    ∧ win0_3.index t (0 : Fin 2) = t.val ∧ win0_3.index t (1 : Fin 2) = 0 :=
  (by decide +kernel : ∀ t : Fin grid0.N, _)
theorem idx_facts9 : ∀ t : Fin cfg0.N,
    win0_9.index t (0 : Fin 2) = t.val ∧ win0_9.index t (1 : Fin 2) = 0
    ∧ win0_1.index t (0 : Fin 2) = t.val ∧ win0_1.index t (1 : Fin 2) = 0
    ∧ win0_6.index t (0 : Fin 2) = 0 ∧ win0_6.index t (1 : Fin 2) = 0
    ∧ win0_4.index t (0 : Fin 2) = t.val ∧ win0_4.index t (1 : Fin 2) = 0 :=
  (by decide +kernel : ∀ t : Fin grid0.N, _)
theorem idx_facts10 : ∀ t : Fin cfg0.N,
    win0_10.index t (0 : Fin 2) = t.val ∧ win0_10.index t (1 : Fin 2) = 0
    ∧ win0_2.index t (0 : Fin 2) = t.val ∧ win0_2.index t (1 : Fin 2) = 0
    ∧ win0_7.index t (0 : Fin 2) = 0 ∧ win0_7.index t (1 : Fin 2) = 0 :=
  (by decide +kernel : ∀ t : Fin grid0.N, _)

variable (V : (c : Dev nD) → (b : Ref sig .tc) → Buf (Elt Ideal) ((c : Thread nD τ).loc b))

/-! ## Output window 8: the `h` projection, scaled by `norm_g` -/

/-- The array the window ends holding, from the arrays the region finds. -/
abbrev result8 (c : Dev nD) : Feat.Idx → EReal :=
  projScaled (V c main_arg0) (V c main_arg9) (V c main_arg3)

/-- WHAT POINT `t` WRITES BACK to it is block `t` of that array. -/
theorem flushed8_eq (c : Dev nD) (t : Fin cfg0.N) :
    (dat0 V c).flushed 8 t = ((cfg0.win 8).blk t).view.read (Elt Ideal) (result8 V c) := by
  show (cfg0.win 8).cut (grid0.coords t) ((dat0 V c).after 8 t) = _
  rw [after0_8]
  unfold out0_8
  rw [View.canon_unit_zero origin]
  simp only [View.ld_unit_zero (S := S1000x512) origin, View.ld_unit_zero (S := S1000x1) origin,
    View.ld_unit_zero (S := S512x512) origin]
  obtain ⟨eo0, eo1, ef0, ef1, ew0, ew1, en0, en1⟩ := idx_facts8 t
  funext j
  obtain ⟨p, q, rfl⟩ : ∃ (p : Fin 1000) (q : Fin 512), j = ix2 p q := ⟨j 0, j 1, eq_ix2 j⟩
  refine (pay_h (iblk0 V c 0 t) (iblk0 V c 5 t) (iblk0 V c 3 t) p q).trans ?_
  have hdot : rowDotCol (M := 1000) (iblk0 V c 0 t) (iblk0 V c 5 t) p q
      = rowDotCol (M := 50000) (V c main_arg0) (V c main_arg9) ((((cfg0.win 8).blk t).view.emb (ix2 p q)) 0) ((((cfg0.win 8).blk t).view.emb (ix2 p q)) 1) :=
    rowDotCol_congr (M := 1000) (M' := 50000) (iblk0 V c 0 t) (V c main_arg0) (iblk0 V c 5 t) (V c main_arg9) p ((((cfg0.win 8).blk t).view.emb (ix2 p q)) 0) q ((((cfg0.win 8).blk t).view.emb (ix2 p q)) 1)
      (fun k => by
        show V c main_arg0 (((cfg0.win 0).blk t).view.emb (ix2 p k)) = _
        refine congrArg (V c main_arg0) (funext fun a => Fin.ext ?_)
        match a with
        | ⟨0, _⟩ => show win0_0.index t (0 : Fin 2) * 1000 + 1 * p.val = win0_8.index t (0 : Fin 2) * 1000 + 1 * p.val; omega
        | ⟨1, _⟩ => show win0_0.index t (1 : Fin 2) * 512 + 1 * k.val = k.val; omega)
      (fun k => by
        show V c main_arg9 (((cfg0.win 5).blk t).view.emb (ix2 k q)) = _
        refine congrArg (V c main_arg9) (funext fun a => Fin.ext ?_)
        match a with
        | ⟨0, _⟩ => show win0_5.index t (0 : Fin 2) * 512 + 1 * k.val = k.val; omega
        | ⟨1, _⟩ => show win0_5.index t (1 : Fin 2) * 512 + 1 * q.val = win0_8.index t (1 : Fin 2) * 512 + 1 * q.val; omega)
  have hn : iblk0 V c 3 t (ix2 p (0 : Fin 1)) = V c main_arg3 (ix2 (n0 := 50000) ((((cfg0.win 8).blk t).view.emb (ix2 p q)) 0) (0 : Fin 1)) := by
    show V c main_arg3 (((cfg0.win 3).blk t).view.emb (ix2 p (0 : Fin 1))) = _
    refine congrArg (V c main_arg3) (funext fun a => Fin.ext ?_)
    match a with
    | ⟨0, _⟩ => show win0_3.index t (0 : Fin 2) * 1000 + 1 * p.val = win0_8.index t (0 : Fin 2) * 1000 + 1 * p.val; omega
    | ⟨1, _⟩ => show win0_3.index t (1 : Fin 2) * 1 + 1 * 0 = 0; omega
  rw [hdot, hn]
  rfl

/-- An index of the array is in point `t`'s block iff each coordinate is in the block's range on its axis. -/
theorem mem_blk8 (t : Fin cfg0.N) (i : S50000x512.Idx) :
    i ∈ ((cfg0.win 8).blk t).view.set ↔ ∀ a : Fin 2, win0_8.index t a * S1000x512.size a ≤ (i a).val
      ∧ (i a).val < win0_8.index t a * S1000x512.size a + S1000x512.size a := by
  show i ∈ ((View.whole main_v0_0).slice (win0_8.rect t)).set ↔ _
  rw [View.set_slice_whole, Rect.mem_set_unit]
  exact Iff.rfl

/-- THE COVER: row `r` lies in the block of point `r / 1000`. -/
theorem cover8 (i : S50000x512.Idx) :
    ∃ t : Fin cfg0.N, (cfg0.win 8).flush t = true ∧ i ∈ ((cfg0.win 8).blk t).view.set := by
  have hi0 : (i 0).val < 50000 := (i 0).isLt
  have hi1 : (i 1).val < 512 := (i 1).isLt
  have hN : cfg0.N = 50 := N_0
  have hlt : (i 0).val / 1000 < cfg0.N := by rw [hN]; omega
  obtain ⟨eo0, eo1, -⟩ := idx_facts8 ⟨(i 0).val / 1000, hlt⟩
  have eo0' : win0_8.index ⟨(i 0).val / 1000, hlt⟩ (0 : Fin 2) = (i 0).val / 1000 := eo0
  refine ⟨⟨(i 0).val / 1000, hlt⟩, flush0_8 _, ?_⟩
  rw [mem_blk8]
  intro a
  match a with
  | ⟨0, _⟩ =>
    show win0_8.index ⟨(i 0).val / 1000, hlt⟩ (0 : Fin 2) * 1000 ≤ (i 0).val
      ∧ (i 0).val < win0_8.index ⟨(i 0).val / 1000, hlt⟩ (0 : Fin 2) * 1000 + 1000
    omega
  | ⟨1, _⟩ =>
    show win0_8.index ⟨(i 0).val / 1000, hlt⟩ (1 : Fin 2) * 512 ≤ (i 1).val
      ∧ (i 1).val < win0_8.index ⟨(i 0).val / 1000, hlt⟩ (1 : Fin 2) * 512 + 512
    omega

/-- THE ARRAY after the region. -/
theorem final8 (c : Dev nD) : (dat0 V c).arrAt 8 cfg0.N = result8 V c :=
  (dat0 V c).arrAt_eq_of_cover 8 (result8 V c) (fun t _ => flushed8_eq V c t) cover8

/-! ## Output window 9: the `s` projection, scaled by `norm_f` -/

/-- The array the window ends holding, from the arrays the region finds. -/
abbrev result9 (c : Dev nD) : Feat.Idx → EReal :=
  projScaled (V c main_arg1) (V c main_arg10) (V c main_arg4)

/-- WHAT POINT `t` WRITES BACK to it is block `t` of that array. -/
theorem flushed9_eq (c : Dev nD) (t : Fin cfg0.N) :
    (dat0 V c).flushed 9 t = ((cfg0.win 9).blk t).view.read (Elt Ideal) (result9 V c) := by
  show (cfg0.win 9).cut (grid0.coords t) ((dat0 V c).after 9 t) = _
  rw [after0_9]
  unfold out0_9
  rw [View.canon_unit_zero origin]
  simp only [View.ld_unit_zero (S := S1000x512) origin, View.ld_unit_zero (S := S1000x1) origin,
    View.ld_unit_zero (S := S512x512) origin]
  obtain ⟨eo0, eo1, ef0, ef1, ew0, ew1, en0, en1⟩ := idx_facts9 t
  funext j
  obtain ⟨p, q, rfl⟩ : ∃ (p : Fin 1000) (q : Fin 512), j = ix2 p q := ⟨j 0, j 1, eq_ix2 j⟩
  refine (pay_s (iblk0 V c 1 t) (iblk0 V c 6 t) (iblk0 V c 4 t) p q).trans ?_
  have hdot : rowDotCol (M := 1000) (iblk0 V c 1 t) (iblk0 V c 6 t) p q
      = rowDotCol (M := 50000) (V c main_arg1) (V c main_arg10) ((((cfg0.win 9).blk t).view.emb (ix2 p q)) 0) ((((cfg0.win 9).blk t).view.emb (ix2 p q)) 1) :=
    rowDotCol_congr (M := 1000) (M' := 50000) (iblk0 V c 1 t) (V c main_arg1) (iblk0 V c 6 t) (V c main_arg10) p ((((cfg0.win 9).blk t).view.emb (ix2 p q)) 0) q ((((cfg0.win 9).blk t).view.emb (ix2 p q)) 1)
      (fun k => by
        show V c main_arg1 (((cfg0.win 1).blk t).view.emb (ix2 p k)) = _
        refine congrArg (V c main_arg1) (funext fun a => Fin.ext ?_)
        match a with
        | ⟨0, _⟩ => show win0_1.index t (0 : Fin 2) * 1000 + 1 * p.val = win0_9.index t (0 : Fin 2) * 1000 + 1 * p.val; omega
        | ⟨1, _⟩ => show win0_1.index t (1 : Fin 2) * 512 + 1 * k.val = k.val; omega)
      (fun k => by
        show V c main_arg10 (((cfg0.win 6).blk t).view.emb (ix2 k q)) = _
        refine congrArg (V c main_arg10) (funext fun a => Fin.ext ?_)
        match a with
        | ⟨0, _⟩ => show win0_6.index t (0 : Fin 2) * 512 + 1 * k.val = k.val; omega
        | ⟨1, _⟩ => show win0_6.index t (1 : Fin 2) * 512 + 1 * q.val = win0_9.index t (1 : Fin 2) * 512 + 1 * q.val; omega)
  have hn : iblk0 V c 4 t (ix2 p (0 : Fin 1)) = V c main_arg4 (ix2 (n0 := 50000) ((((cfg0.win 9).blk t).view.emb (ix2 p q)) 0) (0 : Fin 1)) := by
    show V c main_arg4 (((cfg0.win 4).blk t).view.emb (ix2 p (0 : Fin 1))) = _
    refine congrArg (V c main_arg4) (funext fun a => Fin.ext ?_)
    match a with
    | ⟨0, _⟩ => show win0_4.index t (0 : Fin 2) * 1000 + 1 * p.val = win0_9.index t (0 : Fin 2) * 1000 + 1 * p.val; omega
    | ⟨1, _⟩ => show win0_4.index t (1 : Fin 2) * 1 + 1 * 0 = 0; omega
  rw [hdot, hn]
  rfl

/-- An index of the array is in point `t`'s block iff each coordinate is in the block's range on its axis. -/
theorem mem_blk9 (t : Fin cfg0.N) (i : S50000x512.Idx) :
    i ∈ ((cfg0.win 9).blk t).view.set ↔ ∀ a : Fin 2, win0_9.index t a * S1000x512.size a ≤ (i a).val
      ∧ (i a).val < win0_9.index t a * S1000x512.size a + S1000x512.size a := by
  show i ∈ ((View.whole main_v0_1).slice (win0_9.rect t)).set ↔ _
  rw [View.set_slice_whole, Rect.mem_set_unit]
  exact Iff.rfl

/-- THE COVER: row `r` lies in the block of point `r / 1000`. -/
theorem cover9 (i : S50000x512.Idx) :
    ∃ t : Fin cfg0.N, (cfg0.win 9).flush t = true ∧ i ∈ ((cfg0.win 9).blk t).view.set := by
  have hi0 : (i 0).val < 50000 := (i 0).isLt
  have hi1 : (i 1).val < 512 := (i 1).isLt
  have hN : cfg0.N = 50 := N_0
  have hlt : (i 0).val / 1000 < cfg0.N := by rw [hN]; omega
  obtain ⟨eo0, eo1, -⟩ := idx_facts9 ⟨(i 0).val / 1000, hlt⟩
  have eo0' : win0_9.index ⟨(i 0).val / 1000, hlt⟩ (0 : Fin 2) = (i 0).val / 1000 := eo0
  refine ⟨⟨(i 0).val / 1000, hlt⟩, flush0_9 _, ?_⟩
  rw [mem_blk9]
  intro a
  match a with
  | ⟨0, _⟩ =>
    show win0_9.index ⟨(i 0).val / 1000, hlt⟩ (0 : Fin 2) * 1000 ≤ (i 0).val
      ∧ (i 0).val < win0_9.index ⟨(i 0).val / 1000, hlt⟩ (0 : Fin 2) * 1000 + 1000
    omega
  | ⟨1, _⟩ =>
    show win0_9.index ⟨(i 0).val / 1000, hlt⟩ (1 : Fin 2) * 512 ≤ (i 1).val
      ∧ (i 1).val < win0_9.index ⟨(i 0).val / 1000, hlt⟩ (1 : Fin 2) * 512 + 512
    omega

/-- THE ARRAY after the region. -/
theorem final9 (c : Dev nD) : (dat0 V c).arrAt 9 cfg0.N = result9 V c :=
  (dat0 V c).arrAt_eq_of_cover 9 (result9 V c) (fun t _ => flushed9_eq V c t) cover9

/-! ## Output window 10: the `m` projection -/

/-- The array the window ends holding, from the arrays the region finds. -/
abbrev result10 (c : Dev nD) : Feat.Idx → EReal :=
  proj (V c main_arg2) (V c main_arg11)

/-- WHAT POINT `t` WRITES BACK to it is block `t` of that array. -/
theorem flushed10_eq (c : Dev nD) (t : Fin cfg0.N) :
    (dat0 V c).flushed 10 t = ((cfg0.win 10).blk t).view.read (Elt Ideal) (result10 V c) := by
  show (cfg0.win 10).cut (grid0.coords t) ((dat0 V c).after 10 t) = _
  rw [after0_10]
  unfold out0_10
  rw [View.canon_unit_zero origin]
  simp only [View.ld_unit_zero (S := S1000x512) origin, View.ld_unit_zero (S := S1000x1) origin,
    View.ld_unit_zero (S := S512x512) origin]
  obtain ⟨eo0, eo1, ef0, ef1, ew0, ew1⟩ := idx_facts10 t
  funext j
  obtain ⟨p, q, rfl⟩ : ∃ (p : Fin 1000) (q : Fin 512), j = ix2 p q := ⟨j 0, j 1, eq_ix2 j⟩
  refine (pay_m (iblk0 V c 2 t) (iblk0 V c 7 t) p q).trans ?_
  have hdot : rowDotCol (M := 1000) (iblk0 V c 2 t) (iblk0 V c 7 t) p q
      = rowDotCol (M := 50000) (V c main_arg2) (V c main_arg11) ((((cfg0.win 10).blk t).view.emb (ix2 p q)) 0) ((((cfg0.win 10).blk t).view.emb (ix2 p q)) 1) :=
    rowDotCol_congr (M := 1000) (M' := 50000) (iblk0 V c 2 t) (V c main_arg2) (iblk0 V c 7 t) (V c main_arg11) p ((((cfg0.win 10).blk t).view.emb (ix2 p q)) 0) q ((((cfg0.win 10).blk t).view.emb (ix2 p q)) 1)
      (fun k => by
        show V c main_arg2 (((cfg0.win 2).blk t).view.emb (ix2 p k)) = _
        refine congrArg (V c main_arg2) (funext fun a => Fin.ext ?_)
        match a with
        | ⟨0, _⟩ => show win0_2.index t (0 : Fin 2) * 1000 + 1 * p.val = win0_10.index t (0 : Fin 2) * 1000 + 1 * p.val; omega
        | ⟨1, _⟩ => show win0_2.index t (1 : Fin 2) * 512 + 1 * k.val = k.val; omega)
      (fun k => by
        show V c main_arg11 (((cfg0.win 7).blk t).view.emb (ix2 k q)) = _
        refine congrArg (V c main_arg11) (funext fun a => Fin.ext ?_)
        match a with
        | ⟨0, _⟩ => show win0_7.index t (0 : Fin 2) * 512 + 1 * k.val = k.val; omega
        | ⟨1, _⟩ => show win0_7.index t (1 : Fin 2) * 512 + 1 * q.val = win0_10.index t (1 : Fin 2) * 512 + 1 * q.val; omega)
  rw [hdot]
  rfl

/-- An index of the array is in point `t`'s block iff each coordinate is in the block's range on its axis. -/
theorem mem_blk10 (t : Fin cfg0.N) (i : S50000x512.Idx) :
    i ∈ ((cfg0.win 10).blk t).view.set ↔ ∀ a : Fin 2, win0_10.index t a * S1000x512.size a ≤ (i a).val
      ∧ (i a).val < win0_10.index t a * S1000x512.size a + S1000x512.size a := by
  show i ∈ ((View.whole main_v0_2).slice (win0_10.rect t)).set ↔ _
  rw [View.set_slice_whole, Rect.mem_set_unit]
  exact Iff.rfl

/-- THE COVER: row `r` lies in the block of point `r / 1000`. -/
theorem cover10 (i : S50000x512.Idx) :
    ∃ t : Fin cfg0.N, (cfg0.win 10).flush t = true ∧ i ∈ ((cfg0.win 10).blk t).view.set := by
  have hi0 : (i 0).val < 50000 := (i 0).isLt
  have hi1 : (i 1).val < 512 := (i 1).isLt
  have hN : cfg0.N = 50 := N_0
  have hlt : (i 0).val / 1000 < cfg0.N := by rw [hN]; omega
  obtain ⟨eo0, eo1, -⟩ := idx_facts10 ⟨(i 0).val / 1000, hlt⟩
  have eo0' : win0_10.index ⟨(i 0).val / 1000, hlt⟩ (0 : Fin 2) = (i 0).val / 1000 := eo0
  refine ⟨⟨(i 0).val / 1000, hlt⟩, flush0_10 _, ?_⟩
  rw [mem_blk10]
  intro a
  match a with
  | ⟨0, _⟩ =>
    show win0_10.index ⟨(i 0).val / 1000, hlt⟩ (0 : Fin 2) * 1000 ≤ (i 0).val
      ∧ (i 0).val < win0_10.index ⟨(i 0).val / 1000, hlt⟩ (0 : Fin 2) * 1000 + 1000
    omega
  | ⟨1, _⟩ =>
    show win0_10.index ⟨(i 0).val / 1000, hlt⟩ (1 : Fin 2) * 512 ≤ (i 1).val
      ∧ (i 1).val < win0_10.index ⟨(i 0).val / 1000, hlt⟩ (1 : Fin 2) * 512 + 512
    omega

/-- THE ARRAY after the region. -/
theorem final10 (c : Dev nD) : (dat0 V c).arrAt 10 cfg0.N = result10 V c :=
  (dat0 V c).arrAt_eq_of_cover 10 (result10 V c) (fun t _ => flushed10_eq V c t) cover10

end Cert.KernelIdeal.ProjRegion

end
-- ==== Proof.CombineRegion.lean ====
/-
  The second kernel region computes the combine, block by block.

  The grid has 50 points; point `t` works on rows `1000·t … 1000·t + 999`.  Its three feature operands and its
  output are the `t`-th 1000 × 512 blocks of their arrays, its two node scales the `t`-th 1000 × 1 blocks, and its
  three bias rows the one 1 × 512 block.  The body's stored value at `(p, q)` of the block is
      max (((a (p,q) · g (p,0) + bh (0,q)) + (b (p,q) · f (p,0) + bs (0,q))) + (m (p,q) + bm (0,q))) 0,
  which is the specification's combine at row `1000·t + p`, channel `q`.  The 50 output blocks tile the array
  (row `r` lies in block `r / 1000`), so after the region the output array is the combine of the arrays the region
  found.
-/
import proofs.«170449_j28681791603391_1_alg».proof.Proof.Gen.KernelIdeal.Frame
import proofs.«170449_j28681791603391_1_alg».proof.Proof.Spec
import Idealize.ShloMosaic.Lib.Pipeline.Value
import Idealize.ShloMosaic.Lib.ValueIdx

set_option maxRecDepth 16384

noncomputable section

namespace Cert.KernelIdeal.CombineRegion

open Cert.KernelIdeal Cert.KernelIdeal.Gen Cert.GraphLayer
open Idealize.ShloMosaic Idealize.ShloMosaic.TcCoe Idealize.SL.Sem Idealize.ShloMosaic.ValueIdx
open Idealize.ShloMosaic.Pipeline (Dat)

theorem origin : (![0, 0] : Fin 2 → Nat) = fun _ => 0 := funext fun a => by fin_cases a <;> rfl

/-- The stored value at `(p, q)` of the block, from the loaded blocks. -/
theorem pay_apply (a b s : Vec Ideal S1000x512 .f32) (g f : Vec Ideal S1000x1 .f32) (bh bs bm : Vec Ideal S1x512 .f32)
    (p : Fin 1000) (q : Fin 512) :
    k1_pay1 (F := Ideal) a g bh b f bs s bm (ix2 p q)
      = max (((a (ix2 p q) * g (ix2 p (0 : Fin 1)) + bh (ix2 (0 : Fin 1) q))
          + (b (ix2 p q) * f (ix2 p (0 : Fin 1)) + bs (ix2 (0 : Fin 1) q)))
          + (s (ix2 p q) + bm (ix2 (0 : Fin 1) q))) (Ideal.ofBits .f32 0x00000000#32) := by
  have hn : ∀ x : Vec Ideal S1000x1 .f32,
      broadcastTo S1000x512 x broadcasts_S1000x1_S1000x512 (ix2 p q) = x (ix2 p (0 : Fin 1)) := fun x =>
    broadcastTo_apply x broadcasts_S1000x1_S1000x512 (ix2 p q) (ix2 p (0 : Fin 1)) (fun a => by
      match a with
      | ⟨0, _⟩ => show p.val = if (1000 : Nat) = 1 then 0 else p.val; rw [if_neg (by decide)]
      | ⟨1, _⟩ => show 0 = if (1 : Nat) = 1 then 0 else q.val; rw [if_pos rfl])
  have hb : ∀ x : Vec Ideal S1x512 .f32,
      broadcastTo S1000x512 x broadcasts_S1x512_S1000x512 (ix2 p q) = x (ix2 (0 : Fin 1) q) := fun x =>
    broadcastTo_apply x broadcasts_S1x512_S1000x512 (ix2 p q) (ix2 (0 : Fin 1) q) (fun a => by
      match a with
      | ⟨0, _⟩ => show 0 = if (1 : Nat) = 1 then 0 else p.val; rw [if_pos rfl]
      | ⟨1, _⟩ => show q.val = if (512 : Nat) = 1 then 0 else q.val; rw [if_neg (by decide)])
  unfold k1_pay1
  simp only [shapeCast_self, maximumf_apply, addf_apply, mulf_apply, broadcast_apply, hn, hb]
  rfl

/-- The printed index maps, decided over the 50 points: the feature, scale and output windows are at block row `t`,
    block column 0; the bias rows at block (0, 0). -/
theorem idx_facts : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

variable (V : (c : Dev nD) → (b : Ref sig .tc) → Buf (Elt Ideal) ((c : Thread nD τ).loc b))

/-- The combine of the arrays the region finds. -/
abbrev result (c : Dev nD) : Feat.Idx → EReal :=
  combine (V c main_v10) (V c main_v20) (V c main_v0_2) (V c main_arg3) (V c main_arg4)
    (fun q => V c main_v21 (ix2 (0 : Fin 1) q)) (fun q => V c main_v22 (ix2 (0 : Fin 1) q))
    (fun q => V c main_v23 (ix2 (0 : Fin 1) q))

/-- WHAT POINT `t` WRITES BACK is block `t` of the combine. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  unfold out1_8
  rw [View.canon_unit_zero origin]
  simp only [View.ld_unit_zero (S := S1000x512) origin, View.ld_unit_zero (S := S1000x1) origin,
    View.ld_unit_zero (S := S1x512) origin]
  obtain ⟨e80, e81, e00, e01, e10, e11, e20, e21, e30, e31, e40, e41, e50, e51, e60, e61, e70, e71⟩ := idx_facts t
  funext j
  obtain ⟨p, q, rfl⟩ : ∃ (p : Fin 1000) (q : Fin 512), j = ix2 p q := ⟨j 0, j 1, eq_ix2 j⟩
  refine (pay_apply (iblk1 V c 0 t) (iblk1 V c 1 t) (iblk1 V c 2 t) (iblk1 V c 3 t) (iblk1 V c 4 t)
    (iblk1 V c 5 t) (iblk1 V c 6 t) (iblk1 V c 7 t) p q).trans ?_
  have r0 : iblk1 V c 0 t (ix2 p q) = V c main_v10 (((cfg1.win 8).blk t).view.emb (ix2 p q)) := by
    show V c main_v10 (((cfg1.win 0).blk t).view.emb (ix2 p q)) = V c main_v10 (((cfg1.win 8).blk t).view.emb (ix2 p q))
    refine congrArg (V c main_v10) (funext fun a => Fin.ext ?_)
    match a with
    | ⟨0, _⟩ => show win1_0.index t (0 : Fin 2) * 1000 + 1 * p.val = win1_8.index t (0 : Fin 2) * 1000 + 1 * p.val; omega
    | ⟨1, _⟩ => show win1_0.index t (1 : Fin 2) * 512 + 1 * q.val = win1_8.index t (1 : Fin 2) * 512 + 1 * q.val; omega
  have r1 : iblk1 V c 1 t (ix2 p q) = V c main_v20 (((cfg1.win 8).blk t).view.emb (ix2 p q)) := by
    show V c main_v20 (((cfg1.win 1).blk t).view.emb (ix2 p q)) = V c main_v20 (((cfg1.win 8).blk t).view.emb (ix2 p q))
    refine congrArg (V c main_v20) (funext fun a => Fin.ext ?_)
    match a with
    | ⟨0, _⟩ => show win1_1.index t (0 : Fin 2) * 1000 + 1 * p.val = win1_8.index t (0 : Fin 2) * 1000 + 1 * p.val; omega
    | ⟨1, _⟩ => show win1_1.index t (1 : Fin 2) * 512 + 1 * q.val = win1_8.index t (1 : Fin 2) * 512 + 1 * q.val; omega
  have r2 : iblk1 V c 2 t (ix2 p q) = V c main_v0_2 (((cfg1.win 8).blk t).view.emb (ix2 p q)) := by
    show V c main_v0_2 (((cfg1.win 2).blk t).view.emb (ix2 p q)) = V c main_v0_2 (((cfg1.win 8).blk t).view.emb (ix2 p q))
    refine congrArg (V c main_v0_2) (funext fun a => Fin.ext ?_)
    match a with
    | ⟨0, _⟩ => show win1_2.index t (0 : Fin 2) * 1000 + 1 * p.val = win1_8.index t (0 : Fin 2) * 1000 + 1 * p.val; omega
    | ⟨1, _⟩ => show win1_2.index t (1 : Fin 2) * 512 + 1 * q.val = win1_8.index t (1 : Fin 2) * 512 + 1 * q.val; omega
  have r3 : iblk1 V c 3 t (ix2 p (0 : Fin 1))
      = V c main_arg3 (ix2 (n0 := 50000) ((((cfg1.win 8).blk t).view.emb (ix2 p q)) 0) (0 : Fin 1)) := by
    show V c main_arg3 (((cfg1.win 3).blk t).view.emb (ix2 p (0 : Fin 1))) = _
    refine congrArg (V c main_arg3) (funext fun a => Fin.ext ?_)
    match a with
    | ⟨0, _⟩ => show win1_3.index t (0 : Fin 2) * 1000 + 1 * p.val = win1_8.index t (0 : Fin 2) * 1000 + 1 * p.val; omega
    | ⟨1, _⟩ => show win1_3.index t (1 : Fin 2) * 1 + 1 * 0 = 0; omega
  have r4 : iblk1 V c 4 t (ix2 p (0 : Fin 1))
      = V c main_arg4 (ix2 (n0 := 50000) ((((cfg1.win 8).blk t).view.emb (ix2 p q)) 0) (0 : Fin 1)) := by
    show V c main_arg4 (((cfg1.win 4).blk t).view.emb (ix2 p (0 : Fin 1))) = _
    refine congrArg (V c main_arg4) (funext fun a => Fin.ext ?_)
    match a with
    | ⟨0, _⟩ => show win1_4.index t (0 : Fin 2) * 1000 + 1 * p.val = win1_8.index t (0 : Fin 2) * 1000 + 1 * p.val; omega
    | ⟨1, _⟩ => show win1_4.index t (1 : Fin 2) * 1 + 1 * 0 = 0; omega
  have r5 : iblk1 V c 5 t (ix2 (0 : Fin 1) q)
      = V c main_v21 (ix2 (n1 := 512) (0 : Fin 1) ((((cfg1.win 8).blk t).view.emb (ix2 p q)) 1)) := by
    show V c main_v21 (((cfg1.win 5).blk t).view.emb (ix2 (0 : Fin 1) q)) = _
    refine congrArg (V c main_v21) (funext fun a => Fin.ext ?_)
    match a with
    | ⟨0, _⟩ => show win1_5.index t (0 : Fin 2) * 1 + 1 * 0 = 0; omega
    | ⟨1, _⟩ => show win1_5.index t (1 : Fin 2) * 512 + 1 * q.val = win1_8.index t (1 : Fin 2) * 512 + 1 * q.val; omega
  have r6 : iblk1 V c 6 t (ix2 (0 : Fin 1) q)
      = V c main_v22 (ix2 (n1 := 512) (0 : Fin 1) ((((cfg1.win 8).blk t).view.emb (ix2 p q)) 1)) := by
    show V c main_v22 (((cfg1.win 6).blk t).view.emb (ix2 (0 : Fin 1) q)) = _
    refine congrArg (V c main_v22) (funext fun a => Fin.ext ?_)
    match a with
    | ⟨0, _⟩ => show win1_6.index t (0 : Fin 2) * 1 + 1 * 0 = 0; omega
    | ⟨1, _⟩ => show win1_6.index t (1 : Fin 2) * 512 + 1 * q.val = win1_8.index t (1 : Fin 2) * 512 + 1 * q.val; omega
  have r7 : iblk1 V c 7 t (ix2 (0 : Fin 1) q)
      = V c main_v23 (ix2 (n1 := 512) (0 : Fin 1) ((((cfg1.win 8).blk t).view.emb (ix2 p q)) 1)) := by
    show V c main_v23 (((cfg1.win 7).blk t).view.emb (ix2 (0 : Fin 1) q)) = _
    refine congrArg (V c main_v23) (funext fun a => Fin.ext ?_)
    match a with
    | ⟨0, _⟩ => show win1_7.index t (0 : Fin 2) * 1 + 1 * 0 = 0; omega
    | ⟨1, _⟩ => show win1_7.index t (1 : Fin 2) * 512 + 1 * q.val = win1_8.index t (1 : Fin 2) * 512 + 1 * q.val; omega
  rw [r0, r1, r2, r3, r4, r5, r6, r7]
  rfl

/-- An index of the output array is in point `t`'s block iff each coordinate is in the block's range on its axis. -/
theorem mem_blk (t : Fin cfg1.N) (i : S50000x512.Idx) :
    i ∈ ((cfg1.win 8).blk t).view.set ↔ ∀ a : Fin 2, win1_8.index t a * S1000x512.size a ≤ (i a).val
      ∧ (i a).val < win1_8.index t a * S1000x512.size a + S1000x512.size a := by
  show i ∈ ((View.whole main_v24).slice (win1_8.rect t)).set ↔ _
  rw [View.set_slice_whole, Rect.mem_set_unit]
  exact Iff.rfl

/-- THE COVER: row `r` lies in the block of point `r / 1000`. -/
theorem cover (i : S50000x512.Idx) :
    ∃ t : Fin cfg1.N, (cfg1.win 8).flush t = true ∧ i ∈ ((cfg1.win 8).blk t).view.set := by
  have hi0 : (i 0).val < 50000 := (i 0).isLt
  have hi1 : (i 1).val < 512 := (i 1).isLt
  have hN : cfg1.N = 50 := N_1
  have hlt : (i 0).val / 1000 < cfg1.N := by rw [hN]; omega
  obtain ⟨e80, e81, -⟩ := idx_facts ⟨(i 0).val / 1000, hlt⟩
  have e80' : win1_8.index ⟨(i 0).val / 1000, hlt⟩ (0 : Fin 2) = (i 0).val / 1000 := e80
  refine ⟨⟨(i 0).val / 1000, hlt⟩, flush1_8 _, ?_⟩
  rw [mem_blk]
  intro a
  match a with
  | ⟨0, _⟩ =>
    show win1_8.index ⟨(i 0).val / 1000, hlt⟩ (0 : Fin 2) * 1000 ≤ (i 0).val
      ∧ (i 0).val < win1_8.index ⟨(i 0).val / 1000, hlt⟩ (0 : Fin 2) * 1000 + 1000
    omega
  | ⟨1, _⟩ =>
    show win1_8.index ⟨(i 0).val / 1000, hlt⟩ (1 : Fin 2) * 512 ≤ (i 1).val
      ∧ (i 1).val < win1_8.index ⟨(i 0).val / 1000, hlt⟩ (1 : Fin 2) * 512 + 512
    omega

/-- THE OUTPUT ARRAY after the region: the combine of the arrays the region found. -/
theorem final (c : Dev nD) : (dat1 V c).arrAt 8 cfg1.N = result V c :=
  (dat1 V c).arrAt_eq_of_cover 8 (result V c) (fun t _ => flushed_eq V c t) cover

end Cert.KernelIdeal.CombineRegion

end
-- ==== Proof.HostStretch.lean ====
/-
  The host operations between the two kernel regions, read as functions of the buffers they start from.

  From any contents `W` of the TensorCore's buffers, after the stretch: the buffer the second region reads as its
  first operand holds the edge aggregation (along the `g` edges) of what `W` holds in the first region's first
  output; its second operand the aggregation (along the `f` edges) of the first region's second output; each bias
  row is the bias vector reshaped to one row, so its entry `(0, q)` is the vector's entry `q`; and the buffers the
  stretch does not write (the first region's third output, the node scales) are as in `W`.
-/
import proofs.«170449_j28681791603391_1_alg».proof.Proof.Gen.KernelIdeal.Launch
import proofs.«170449_j28681791603391_1_alg».proof.Proof.Spec
import Idealize.ShloMosaic.Lib.StableHlo.Run
import Idealize.ShloMosaic.Lib.Pipeline.Value

set_option maxRecDepth 16384

noncomputable section

namespace Cert.KernelIdeal.HostStretch

open Cert.KernelIdeal Cert.KernelIdeal.Gen Cert.GraphLayer
open Idealize.ShloMosaic Idealize.ShloMosaic.TcCoe Idealize.ShloMosaic.ValueIdx Idealize.ShloMosaic.StableHlo

variable (W : Valuation τ sig (Elt Ideal))

set_option maxHeartbeats 2000000 in
/-- The first aggregated array. -/
theorem aggG : after (hostOps1 (F := Ideal)) W (Proc.devRef .tc main_v10)
    = aggregate gather_S50000x512_S500000x1_S500000x512_1_0_n_n_0_1_1512 scatter_S50000x512_S500000x1_S500000x512_1_0_0_1
        bcast_S_S50000x512 bcast_S500000_S500000x1_0 bcast_S_S500000
        (W (Proc.devRef .tc main_v0_0)) (W (Proc.devRef .tc main_arg5)) (W (Proc.devRef .tc main_arg6)) := by
  after_results_simp <;> rfl

set_option maxHeartbeats 2000000 in
/-- The second aggregated array. -/
theorem aggF : after (hostOps1 (F := Ideal)) W (Proc.devRef .tc main_v20)
    = aggregate gather_S50000x512_S500000x1_S500000x512_1_0_n_n_0_1_1512 scatter_S50000x512_S500000x1_S500000x512_1_0_0_1
        bcast_S_S50000x512 bcast_S500000_S500000x1_0 bcast_S_S500000
        (W (Proc.devRef .tc main_v0_1)) (W (Proc.devRef .tc main_arg7)) (W (Proc.devRef .tc main_arg8)) := by
  after_results_simp <;> rfl

set_option maxHeartbeats 2000000 in
/-- The skip array is not written by the stretch. -/
theorem skip : after (hostOps1 (F := Ideal)) W (Proc.devRef .tc main_v0_2) = W (Proc.devRef .tc main_v0_2) := by
  after_results_simp <;> rfl

set_option maxHeartbeats 2000000 in
/-- Neither are the node scales. -/
theorem normG : after (hostOps1 (F := Ideal)) W (Proc.devRef .tc main_arg3) = W (Proc.devRef .tc main_arg3) := by
  after_results_simp <;> rfl
set_option maxHeartbeats 2000000 in
theorem normF : after (hostOps1 (F := Ideal)) W (Proc.devRef .tc main_arg4) = W (Proc.devRef .tc main_arg4) := by
  after_results_simp <;> rfl

/-- A 512-vector reshaped to one row: the row's entry `(0, q)` is the vector's entry `q` (the same row-major
    position). -/
theorem row_apply (v : S512.Idx → EReal) (q : Fin 512) :
    shapeCast S1x512 v shapeCasts_S512_S1x512 (ix2 (0 : Fin 1) q) = v (ix1 q) :=
  shapeCast_apply v shapeCasts_S512_S1x512 (ix2 (0 : Fin 1) q) (ix1 q) (by
    rw [Shape.rowMajor_val_one, Shape.rowMajor_val_two]
    show q.val = 0 * 512 + q.val
    omega)

set_option maxHeartbeats 2000000 in
/-- The three bias rows. -/
theorem biasH (q : Fin 512) : after (hostOps1 (F := Ideal)) W (Proc.devRef .tc main_v21) (ix2 (0 : Fin 1) q)
    = W (Proc.devRef .tc main_arg12) (ix1 q) := by
  have e : (after (hostOps1 (F := Ideal)) W (Proc.devRef .tc main_v21) : S1x512.Idx → EReal)
      = shapeCast S1x512 (W (Proc.devRef .tc main_arg12)) shapeCasts_S512_S1x512 := by
    after_results_simp <;> rfl
  rw [e]
  exact row_apply _ q
set_option maxHeartbeats 2000000 in
theorem biasS (q : Fin 512) : after (hostOps1 (F := Ideal)) W (Proc.devRef .tc main_v22) (ix2 (0 : Fin 1) q)
    = W (Proc.devRef .tc main_arg13) (ix1 q) := by
  have e : (after (hostOps1 (F := Ideal)) W (Proc.devRef .tc main_v22) : S1x512.Idx → EReal)
      = shapeCast S1x512 (W (Proc.devRef .tc main_arg13)) shapeCasts_S512_S1x512 := by
    after_results_simp <;> rfl
  rw [e]
  exact row_apply _ q
set_option maxHeartbeats 2000000 in
theorem biasM (q : Fin 512) : after (hostOps1 (F := Ideal)) W (Proc.devRef .tc main_v23) (ix2 (0 : Fin 1) q)
    = W (Proc.devRef .tc main_arg14) (ix1 q) := by
  have e : (after (hostOps1 (F := Ideal)) W (Proc.devRef .tc main_v23) : S1x512.Idx → EReal)
      = shapeCast S1x512 (W (Proc.devRef .tc main_arg14)) shapeCasts_S512_S1x512 := by
    after_results_simp <;> rfl
  rw [e]
  exact row_apply _ q

end Cert.KernelIdeal.HostStretch

end
-- ==== Proof.KernelValue.lean ====
/-
  The idealized kernel computes the graph layer.

  Walking the boundary contents back from the result: the result buffer is the second region's output array, the
  combine of what that region found; what it found in its two aggregated operands is, by the host stretch, the edge
  aggregation of the first region's two scaled projections, in its skip operand the first region's plain
  projection, in its node scales the launch contents, and in its bias rows the bias vectors reshaped; and the first
  region computed its projections from the launch contents.  Composed, the result is the layer of the arguments.
-/
import proofs.«170449_j28681791603391_1_alg».proof.Proof.KernelRun
import proofs.«170449_j28681791603391_1_alg».proof.Proof.ProjRegion
import proofs.«170449_j28681791603391_1_alg».proof.Proof.CombineRegion
import proofs.«170449_j28681791603391_1_alg».proof.Proof.HostStretch

set_option maxRecDepth 16384

noncomputable section

namespace Cert.KernelIdeal.KernelValue

open Cert.KernelIdeal Cert.KernelIdeal.Gen Cert.GraphLayer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## After the first region -/

/-- `main_arg3` is the first region's input window 3: staged, never written back. -/
theorem W1_arg3 (c : Dev nD) : W1 m ρ c (Proc.devRef .tc main_arg3) = m ((c : Thread nD τ).loc main_arg3) :=
  (W1_arr m ρ c 3).trans (((dat0 (V0 m ρ) c).arrAt_in 3 rfl _).trans (A_eq0 (V0 m ρ) c 3))
/-- `main_arg4` is the first region's input window 4: staged, never written back. -/
theorem W1_arg4 (c : Dev nD) : W1 m ρ c (Proc.devRef .tc main_arg4) = m ((c : Thread nD τ).loc main_arg4) :=
  (W1_arr m ρ c 4).trans (((dat0 (V0 m ρ) c).arrAt_in 4 rfl _).trans (A_eq0 (V0 m ρ) c 4))
/-- `main_arg5` is none of the first region's arrays: the region leaves it as launched. -/
theorem W1_arg5 (c : Dev nD) : W1 m ρ c (Proc.devRef .tc main_arg5) = m ((c : Thread nD τ).loc main_arg5) :=
  W1_of_ne m ρ c main_arg5 (by decide)
/-- `main_arg6` is none of the first region's arrays: the region leaves it as launched. -/
theorem W1_arg6 (c : Dev nD) : W1 m ρ c (Proc.devRef .tc main_arg6) = m ((c : Thread nD τ).loc main_arg6) :=
  W1_of_ne m ρ c main_arg6 (by decide)
/-- `main_arg7` is none of the first region's arrays: the region leaves it as launched. -/
theorem W1_arg7 (c : Dev nD) : W1 m ρ c (Proc.devRef .tc main_arg7) = m ((c : Thread nD τ).loc main_arg7) :=
  W1_of_ne m ρ c main_arg7 (by decide)
/-- `main_arg8` is none of the first region's arrays: the region leaves it as launched. -/
theorem W1_arg8 (c : Dev nD) : W1 m ρ c (Proc.devRef .tc main_arg8) = m ((c : Thread nD τ).loc main_arg8) :=
  W1_of_ne m ρ c main_arg8 (by decide)
/-- `main_arg12` is none of the first region's arrays: the region leaves it as launched. -/
theorem W1_arg12 (c : Dev nD) : W1 m ρ c (Proc.devRef .tc main_arg12) = m ((c : Thread nD τ).loc main_arg12) :=
  W1_of_ne m ρ c main_arg12 (by decide)
/-- `main_arg13` is none of the first region's arrays: the region leaves it as launched. -/
theorem W1_arg13 (c : Dev nD) : W1 m ρ c (Proc.devRef .tc main_arg13) = m ((c : Thread nD τ).loc main_arg13) :=
  W1_of_ne m ρ c main_arg13 (by decide)
/-- `main_arg14` is none of the first region's arrays: the region leaves it as launched. -/
theorem W1_arg14 (c : Dev nD) : W1 m ρ c (Proc.devRef .tc main_arg14) = m ((c : Thread nD τ).loc main_arg14) :=
  W1_of_ne m ρ c main_arg14 (by decide)

/-- The first region's outputs: the two scaled projections and the plain one, of the launch contents. -/
theorem W1_projH (c : Dev nD) : W1 m ρ c (Proc.devRef .tc main_v0_0)
    = projScaled (m ((c : Thread nD τ).loc main_arg0)) (m ((c : Thread nD τ).loc main_arg9)) (m ((c : Thread nD τ).loc main_arg3)) :=
  (W1_arr m ρ c 8).trans (ProjRegion.final8 (V0 m ρ) c)
theorem W1_projS (c : Dev nD) : W1 m ρ c (Proc.devRef .tc main_v0_1)
    = projScaled (m ((c : Thread nD τ).loc main_arg1)) (m ((c : Thread nD τ).loc main_arg10)) (m ((c : Thread nD τ).loc main_arg4)) :=
  (W1_arr m ρ c 9).trans (ProjRegion.final9 (V0 m ρ) c)
theorem W1_projM (c : Dev nD) : W1 m ρ c (Proc.devRef .tc main_v0_2)
    = proj (m ((c : Thread nD τ).loc main_arg2)) (m ((c : Thread nD τ).loc main_arg11)) :=
  (W1_arr m ρ c 10).trans (ProjRegion.final10 (V0 m ρ) c)

/-! ## After the host stretch: what the second region finds -/

theorem V2_aggG (c : Dev nD) : V2 m ρ c main_v10
    = aggregate gather_S50000x512_S500000x1_S500000x512_1_0_n_n_0_1_1512 scatter_S50000x512_S500000x1_S500000x512_1_0_0_1
        bcast_S_S50000x512 bcast_S500000_S500000x1_0 bcast_S_S500000
        (projScaled (m ((c : Thread nD τ).loc main_arg0)) (m ((c : Thread nD τ).loc main_arg9)) (m ((c : Thread nD τ).loc main_arg3))) (m ((c : Thread nD τ).loc main_arg5)) (m ((c : Thread nD τ).loc main_arg6)) := by
  show StableHlo.after hostOps1 (W1 m ρ c) (Proc.devRef .tc main_v10) = _
  rw [HostStretch.aggG, W1_projH, W1_arg5, W1_arg6]
theorem V2_aggF (c : Dev nD) : V2 m ρ c main_v20
    = aggregate gather_S50000x512_S500000x1_S500000x512_1_0_n_n_0_1_1512 scatter_S50000x512_S500000x1_S500000x512_1_0_0_1
        bcast_S_S50000x512 bcast_S500000_S500000x1_0 bcast_S_S500000
        (projScaled (m ((c : Thread nD τ).loc main_arg1)) (m ((c : Thread nD τ).loc main_arg10)) (m ((c : Thread nD τ).loc main_arg4))) (m ((c : Thread nD τ).loc main_arg7)) (m ((c : Thread nD τ).loc main_arg8)) := by
  show StableHlo.after hostOps1 (W1 m ρ c) (Proc.devRef .tc main_v20) = _
  rw [HostStretch.aggF, W1_projS, W1_arg7, W1_arg8]
theorem V2_skip (c : Dev nD) : V2 m ρ c main_v0_2 = proj (m ((c : Thread nD τ).loc main_arg2)) (m ((c : Thread nD τ).loc main_arg11)) := by
  show StableHlo.after hostOps1 (W1 m ρ c) (Proc.devRef .tc main_v0_2) = _
  rw [HostStretch.skip, W1_projM]
theorem V2_normG (c : Dev nD) : V2 m ρ c main_arg3 = m ((c : Thread nD τ).loc main_arg3) := by
  show StableHlo.after hostOps1 (W1 m ρ c) (Proc.devRef .tc main_arg3) = _
  rw [HostStretch.normG, W1_arg3]
theorem V2_normF (c : Dev nD) : V2 m ρ c main_arg4 = m ((c : Thread nD τ).loc main_arg4) := by
  show StableHlo.after hostOps1 (W1 m ρ c) (Proc.devRef .tc main_arg4) = _
  rw [HostStretch.normF, W1_arg4]
theorem V2_biasH (c : Dev nD) (q : Fin 512) : V2 m ρ c main_v21 (ix2 (0 : Fin 1) q) = m ((c : Thread nD τ).loc main_arg12) (ix1 q) := by
  show StableHlo.after hostOps1 (W1 m ρ c) (Proc.devRef .tc main_v21) (ix2 (0 : Fin 1) q) = _
  rw [HostStretch.biasH, W1_arg12]
theorem V2_biasS (c : Dev nD) (q : Fin 512) : V2 m ρ c main_v22 (ix2 (0 : Fin 1) q) = m ((c : Thread nD τ).loc main_arg13) (ix1 q) := by
  show StableHlo.after hostOps1 (W1 m ρ c) (Proc.devRef .tc main_v22) (ix2 (0 : Fin 1) q) = _
  rw [HostStretch.biasS, W1_arg13]
theorem V2_biasM (c : Dev nD) (q : Fin 512) : V2 m ρ c main_v23 (ix2 (0 : Fin 1) q) = m ((c : Thread nD τ).loc main_arg14) (ix1 q) := by
  show StableHlo.after hostOps1 (W1 m ρ c) (Proc.devRef .tc main_v23) (ix2 (0 : Fin 1) q) = _
  rw [HostStretch.biasM, W1_arg14]

/-! ## The result -/

/-- THE KERNEL'S RESULT is the layer of its arguments. -/
theorem result_eq (c : Dev nD) : W3 m ρ c (Proc.devRef .tc main_v24)
    = layer gather_S50000x512_S500000x1_S500000x512_1_0_n_n_0_1_1512 scatter_S50000x512_S500000x1_S500000x512_1_0_0_1
        bcast_S_S50000x512 bcast_S500000_S500000x1_0 bcast_S_S500000
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [ResultRun.W3_result, CombineRegion.final]
  unfold CombineRegion.result layer
  rw [V2_aggG, V2_aggF, V2_skip, V2_normG, V2_normF]
  have hH : (fun q : Fin 512 => V2 m ρ c main_v21 (ix2 (0 : Fin 1) q))
      = fun q : Fin 512 => m ((c : Thread nD τ).loc main_arg12) (ix1 q) := funext fun q => V2_biasH m ρ c q
  have hS : (fun q : Fin 512 => V2 m ρ c main_v22 (ix2 (0 : Fin 1) q))
      = fun q : Fin 512 => m ((c : Thread nD τ).loc main_arg13) (ix1 q) := funext fun q => V2_biasS m ρ c q
  have hM : (fun q : Fin 512 => V2 m ρ c main_v23 (ix2 (0 : Fin 1) q))
      = fun q : Fin 512 => m ((c : Thread nD τ).loc main_arg14) (ix1 q) := funext fun q => V2_biasM m ρ c q
  exact congr (congr (congrArg _ hH) hS) hM

/-- Every weakly fair execution of the idealized kernel terminates, nothing faulting, with its result the layer of
    its arguments and every argument as launched. -/
theorem run : θ_run defs (onTc (τ := τ) (main (F := Ideal))) ⟨m, fun _ => 0, ρ⟩ (fun r => ∀ c : Dev nD,
      r.2.mem ((c.tc : Thread nD τ).loc main_v24) = layer gather_S50000x512_S500000x1_S500000x512_1_0_n_n_0_1_1512 scatter_S50000x512_S500000x1_S500000x512_1_0_0_1
        bcast_S_S50000x512 bcast_S500000_S500000x1_0 bcast_S_S500000
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (ResultRun.run m ρ)

end Cert.KernelIdeal.KernelValue

end
-- ==== Proof.RefValue.lean ====
/-
  The reference computes the graph layer.

  Its three `dot_general`s are plain 50000 × 512 by 512 × 512 products, so at `(r, c)` each is the row·column
  sum of the specification; multiplied by the node scale broadcast along the channels it is the scaled
  projection.  Its gather and scatter-add stages, with the index arithmetic in front of them, are literally
  the specification's edge aggregation applied to that scaled projection.  What remains is pointwise: the
  node scale and the biases are read through broadcasts (node `r`'s scale sits at `(r, 0)`, channel `c`'s
  bias at `c`), the sums are grouped as in the specification, and `relu` is the maximum with the zero word.
-/
import proofs.«170449_j28681791603391_1_alg».proof.Proof.Gen.ReferenceIdeal.Read
import proofs.«170449_j28681791603391_1_alg».proof.Proof.Spec
import proofs.«170449_j28681791603391_1_alg».proof.Proof.LibPlainDot

noncomputable section

namespace Cert.ReferenceIdeal.RefValue

open Cert.ReferenceIdeal Cert.ReferenceIdeal.Gen Cert.ReferenceIdeal.Read Cert.GraphLayer
open Idealize.ShloMosaic Idealize.ShloMosaic.TcCoe Idealize.ShloMosaic.ValueIdx

/-- The reference's dimension numbers are those of a plain product. -/
theorem dot_plain : dot_S50000x512_S512x512_S50000x512_1_0_0_1_n_n = DotDims.plain 50000 512 512 := rfl

/-- A plain `dot_general` of the whole arrays is the projection. -/
theorem dot_eq_proj (x : FVec Ideal S50000x512 .f32) (w : FVec Ideal S512x512 .f32) :
    Host.dotGeneral (F := Ideal) dot_S50000x512_S512x512_S50000x512_1_0_0_1_n_n none x w = proj x w := by
  funext i
  obtain ⟨r, c, rfl⟩ : ∃ (r : Fin 50000) (c : Fin 512), i = ix2 r c := ⟨i 0, i 1, eq_ix2 i⟩
  simp only [Host.dotGeneral]
  rw [dot_plain]
  exact PlainDot.dotGeneral_apply 50000 512 512 none _ x w r c

/-- A node-scale column broadcast along the channels is read at `(r, 0)`. -/
theorem normIdx (r : Fin 50000) (c : Fin 512) : idx_main_v1 (ix2 r c) = ix2 r (0 : Fin 1) :=
  funext fun a => Fin.ext (by match a with | ⟨0, _⟩ => rfl | ⟨1, _⟩ => rfl)

/-- A bias broadcast to a row and then along the nodes is read at the channel. -/
theorem biasIdx (r : Fin 50000) (c : Fin 512) : idx_main_v31 (idx_main_v32 (ix2 r c)) = ix1 c :=
  funext fun a => Fin.ext (by match a with | ⟨0, _⟩ => rfl)

/-- The product with the broadcast node scale is the scaled projection. -/
theorem scaled_eq (x : FVec Ideal S50000x512 .f32) (n : FVec Ideal S50000x1 .f32) (w : FVec Ideal S512x512 .f32) :
    mulf (F := Ideal) (Host.dotGeneral (F := Ideal) dot_S50000x512_S512x512_S50000x512_1_0_0_1_n_n none x w)
      (broadcastInDim S50000x512 ![0, 1] bcast_S50000x1_S50000x512_0_1 n) = projScaled x w n := by
  rw [dot_eq_proj]
  funext i
  obtain ⟨r, c, rfl⟩ : ∃ (r : Fin 50000) (c : Fin 512), i = ix2 r c := ⟨i 0, i 1, eq_ix2 i⟩
  show proj x w (ix2 r c) * val_main_v1 (F := Ideal) n (ix2 r c) = _
  rw [val_main_v1_apply, normIdx]
  rfl

/-- The first aggregated array: the gather and scatter-add stages along the `g` edges are the specification's
    aggregation of the scaled projection. -/
theorem aggG_eq (x0 : (⟨S50000x512, .f32⟩ : BufTy).Contents (Elt Ideal)) (x3 : (⟨S50000x1, .f32⟩ : BufTy).Contents (Elt Ideal))
    (x5 x6 : (⟨S500000, .i32⟩ : BufTy).Contents (Elt Ideal)) (x9 : (⟨S512x512, .f32⟩ : BufTy).Contents (Elt Ideal)) :
    val_main_v16 (F := Ideal) x0 x3 x5 x6 x9
      = aggregate gather_S50000x512_S500000x1_S500000x512_1_0_n_n_0_1_1512 scatter_S50000x512_S500000x1_S500000x512_1_0_0_1
          bcast_S_S50000x512 bcast_S500000_S500000x1_0 bcast_S_S500000 (projScaled x0 x9 x3) x5 x6 := by
  rw [← scaled_eq]
  rfl

/-- The second, along the `f` edges. -/
theorem aggF_eq (x1 : (⟨S50000x512, .f32⟩ : BufTy).Contents (Elt Ideal)) (x4 : (⟨S50000x1, .f32⟩ : BufTy).Contents (Elt Ideal))
    (x7 x8 : (⟨S500000, .i32⟩ : BufTy).Contents (Elt Ideal)) (x10 : (⟨S512x512, .f32⟩ : BufTy).Contents (Elt Ideal)) :
    val_main_v28 (F := Ideal) x1 x4 x7 x8 x10
      = aggregate gather_S50000x512_S500000x1_S500000x512_1_0_n_n_0_1_1512 scatter_S50000x512_S500000x1_S500000x512_1_0_0_1
          bcast_S_S50000x512 bcast_S500000_S500000x1_0 bcast_S_S500000 (projScaled x1 x10 x4) x7 x8 := by
  rw [← scaled_eq]
  rfl

/-- THE REFERENCE'S RESULT is the layer of its arguments. -/
theorem result_eq (x0 x1 x2 : (⟨S50000x512, .f32⟩ : BufTy).Contents (Elt Ideal)) (x3 x4 : (⟨S50000x1, .f32⟩ : BufTy).Contents (Elt Ideal))
    (x5 x6 x7 x8 : (⟨S500000, .i32⟩ : BufTy).Contents (Elt Ideal)) (x9 x10 x11 : (⟨S512x512, .f32⟩ : BufTy).Contents (Elt Ideal))
    (x12 x13 x14 : (⟨S512, .f32⟩ : BufTy).Contents (Elt Ideal)) :
    val_main_v42 (F := Ideal) x0 x1 x2 x3 x4 x5 x6 x7 x8 x9 x10 x11 x12 x13 x14
      = layer gather_S50000x512_S500000x1_S500000x512_1_0_n_n_0_1_1512 scatter_S50000x512_S500000x1_S500000x512_1_0_0_1
          bcast_S_S50000x512 bcast_S500000_S500000x1_0 bcast_S_S500000 x0 x1 x2 x3 x4 x5 x6 x7 x8 x9 x10 x11 x12 x13 x14 := by
  have hM : val_main_v6 (F := Ideal) x2 x11 = proj x2 x11 := dot_eq_proj x2 x11
  funext i
  obtain ⟨r, c, rfl⟩ : ∃ (r : Fin 50000) (c : Fin 512), i = ix2 r c := ⟨i 0, i 1, eq_ix2 i⟩
  rw [val_main_v42_apply, val_main_v41_apply, val_main_v37_apply, val_main_v33_apply, val_main_v18_apply,
    val_main_v36_apply, val_main_v30_apply, val_main_v40_apply,
    val_main_v17_apply, val_main_v29_apply, val_main_v32_apply, val_main_v31_apply, val_main_v35_apply, val_main_v34_apply,
    val_main_v39_apply, val_main_v38_apply, val_main_call0_v0_apply, val_main_call0_cst_apply,
    aggG_eq, aggF_eq, hM]
  rw [show idx_main_v17 (ix2 r c) = ix2 r (0 : Fin 1) from normIdx r c,
    show idx_main_v29 (ix2 r c) = ix2 r (0 : Fin 1) from normIdx r c,
    show idx_main_v31 (idx_main_v32 (ix2 r c)) = ix1 c from biasIdx r c,
    show idx_main_v34 (idx_main_v35 (ix2 r c)) = ix1 c from biasIdx r c,
    show idx_main_v38 (idx_main_v39 (ix2 r c)) = ix1 c from biasIdx r c]
  rfl

end Cert.ReferenceIdeal.RefValue

end
-- ==== Proof.lean ====
/-
  The certificate of a two-relation graph layer:
      relu ((agg_g ((h·wh) ⊙ norm_g) ⊙ norm_g + bh) + (agg_f ((s·ws) ⊙ norm_f) ⊙ norm_f + bs) + (m·wm + bm)),
  where `agg` gathers a feature row per edge at the edge's source and adds it at the edge's destination, and `⊙ norm`
  scales each node's row by that node's entry.

  The kernel computes the three projections in one pipelined region (bf16 operands into an f32 accumulator), the two
  edge aggregations on the host, and everything after them in a second pipelined region; the reference is plain array operations.
  Over the extended reals both are one function of the arguments, the specification's `layer`:
    * a product into a zero accumulator and the host's `dot_general` are the same row·column sum, and rounding to
      bf16 is the identity;
    * the gather and the scatter-add are the same operations with the same dimension numbers on both sides, applied
      to equal arrays, so they are carried as one function and never opened;
    * the scalings, the bias additions and the maximum are pointwise, grouped alike on both sides.
  No law that could fail at an infinity (distributivity, cancellation) is used, so the precondition is never opened.
  No operation of the kernel was rewritten for its reading over the extended reals (that reading is the kernel's own
  text), so there is nothing to preserve beyond it.
-/
import proofs.«170449_j28681791603391_1_alg».proof.Defs
import proofs.«170449_j28681791603391_1_alg».proof.Proof.Gen.Kernel
import proofs.«170449_j28681791603391_1_alg».proof.Proof.Gen.Kernel.Skeleton
import proofs.«170449_j28681791603391_1_alg».proof.Proof.Gen.Kernel.Launch
import proofs.«170449_j28681791603391_1_alg».proof.Proof.Gen.Kernel.Points
import proofs.«170449_j28681791603391_1_alg».proof.Proof.Gen.Kernel.Frame
import proofs.«170449_j28681791603391_1_alg».proof.Proof.Gen.KernelIdeal
import proofs.«170449_j28681791603391_1_alg».proof.Proof.Gen.KernelIdeal.Skeleton
import proofs.«170449_j28681791603391_1_alg».proof.Proof.Gen.KernelIdeal.Launch
import proofs.«170449_j28681791603391_1_alg».proof.Proof.Gen.KernelIdeal.Points
import proofs.«170449_j28681791603391_1_alg».proof.Proof.Gen.KernelIdeal.Frame
import proofs.«170449_j28681791603391_1_alg».proof.Proof.Gen.ReferenceIdeal
import proofs.«170449_j28681791603391_1_alg».proof.Proof.Gen.Pre_finite_inputs
import proofs.«170449_j28681791603391_1_alg».proof.Proof.Gen.ReferenceIdeal.Run
import proofs.«170449_j28681791603391_1_alg».proof.Proof.Gen.ReferenceIdeal.Read
import proofs.«170449_j28681791603391_1_alg».proof.Proof.KernelValue
import proofs.«170449_j28681791603391_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two programs state the same dimension numbers for the gather and the scatter-add. -/
theorem gather_same : Cert.ReferenceIdeal.gather_S50000x512_S500000x1_S500000x512_1_0_n_n_0_1_1512
    = Cert.KernelIdeal.gather_S50000x512_S500000x1_S500000x512_1_0_n_n_0_1_1512 := rfl
theorem scatter_same : Cert.ReferenceIdeal.scatter_S50000x512_S500000x1_S500000x512_1_0_0_1
    = Cert.KernelIdeal.scatter_S50000x512_S500000x1_S500000x512_1_0_0_1 := rfl

/-- From memories agreeing on the arguments both programs end with the layer of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v42_eq, Cert.ReferenceIdeal.RefValue.result_eq,
    a0, a1, a2, a3, a4, a5, a6, a7, a8, a9, a10, a11, a12, a13, a14, gather_same, scatter_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
